-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8192 : Shape := ⟨1, ![8192]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x128 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : IVec S8192 32) (main_arg3 : IVec S8192 32) (main_arg4 : FVec F S128x128 .f32) (main_arg5 : FVec F S128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S8192 : Shape := ⟨1, ![8192]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S8192x1 : Shape := ⟨2, ![8192, 1]⟩
abbrev S8192x128 : Shape := ⟨2, ![8192, 128]⟩
abbrev S128x1 : Shape := ⟨2, ![128, 1]⟩
abbrev S1x1 : Shape := ⟨2, ![1, 1]⟩
abbrev S1x8192 : Shape := ⟨2, ![1, 8192]⟩
abbrev S8192x8192 : Shape := ⟨2, ![8192, 8192]⟩
abbrev S1024x128 : Shape := ⟨2, ![1024, 128]⟩
abbrev S2048x128 : Shape := ⟨2, ![2048, 128]⟩
abbrev S1x2048 : Shape := ⟨2, ![1, 2048]⟩
abbrev S1024x1 : Shape := ⟨2, ![1024, 1]⟩
abbrev S1024x2048 : Shape := ⟨2, ![1024, 2048]⟩
abbrev S128x2048 : Shape := ⟨2, ![128, 2048]⟩
abbrev S1024 : Shape := ⟨1, ![1024]⟩

abbrev nBuf : Space → Nat
  | .hbm => 94
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S8192, .i32⟩
  | .hbm, ⟨3, _⟩ => ⟨S8192, .i32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S128x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .i1⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S128x1, .f32⟩
  | .hbm, ⟨60, _⟩ => ⟨S8192x1, .f32⟩
  | .hbm, ⟨61, _⟩ => ⟨S1x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x128, .f32⟩
  | .hbm, ⟨82, _⟩ => ⟨S_, .f32⟩
  | .hbm, ⟨83, _⟩ => ⟨S8192, .f32⟩
  | .hbm, ⟨84, _⟩ => ⟨S1x8192, .f32⟩
  | .hbm, ⟨85, _⟩ => ⟨S8192x128, .bf16⟩
  | .hbm, ⟨86, _⟩ => ⟨S8192x128, .bf16⟩
  | .hbm, ⟨87, _⟩ => ⟨S8192x8192, .f32⟩
  | .hbm, ⟨88, _⟩ => ⟨S8192x1, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1x2048, .f32⟩
  | .local _ .vmem, ⟨5, _⟩ => ⟨S1x2048, .f32⟩
  | .local _ .vmem, ⟨6, _⟩ => ⟨S1024x1, .f32⟩
  | .local _ .vmem, ⟨7, _⟩ => ⟨S1024x1, .f32⟩
  | .local _ .vmem, ⟨8, _⟩ => ⟨S1024x2048, .f32⟩
  | .local _ .vmem, ⟨9, _⟩ => ⟨S1024x2048, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63_0 : Ref sig .tc := ⟨.hbm, 87, rfl⟩
abbrev main_v63_1 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x128_S8192_d1 : S8192x128.ReducesTo [1] S8192
  h_S_ : 0 < S_.numel
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S1x128_S128x1_1_0 : S1x128.Transposes [1, 0] S128x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192_S1x8192 : S8192.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S2048x128_p1_0_S128x2048 : S2048x128.Transposes [1, 0] S128x2048
  broadcasts_S1024x1_S1024x2048 : S1024x1.Broadcasts S1024x2048
  reduces_S1024x2048_S1024 : S1024x2048.Reduces [1] S1024
  shapeCasts_S1024_S1024x1 : S1024.ShapeCasts S1024x1
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S8192x1_S8192 : S8192x1.ShapeCasts S8192
  reducesTo_S8192x1_S_d0_1 : S8192x1.ReducesTo [0, 1] S_
  gather_S100000x128_S8192x1_S8192x128_1_0_n_n_0_1_1128_wf : GatherDims.WF S100000x128 S8192x1 S8192x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v61) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63_0) S1024x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v63_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S8192 : Shape := ⟨1, ![8192]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S8192x1 : Shape := ⟨2, ![8192, 1]⟩
abbrev S8192x128 : Shape := ⟨2, ![8192, 128]⟩
abbrev S128x1 : Shape := ⟨2, ![128, 1]⟩
abbrev S1x1 : Shape := ⟨2, ![1, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S8192, .i32⟩
  | .hbm, ⟨3, _⟩ => ⟨S8192, .i32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S128x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .i1⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S128x1, .f32⟩
  | .hbm, ⟨60, _⟩ => ⟨S8192x1, .f32⟩
  | .hbm, ⟨61, _⟩ => ⟨S1x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x128, .f32⟩
  | .hbm, ⟨82, _⟩ => ⟨S_, .f32⟩
  | .hbm, ⟨83, _⟩ => ⟨S8192, .f32⟩
  | .hbm, ⟨84, _⟩ => ⟨S1x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S128x8192, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x128_S8192_d1 : S8192x128.ReducesTo [1] S8192
  h_S_ : 0 < S_.numel
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S1x128_S128x1_1_0 : S1x128.Transposes [1, 0] S128x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  transposes_S8192x128_S128x8192_1_0 : S8192x128.Transposes [1, 0] S128x8192
  reducesTo_S8192x8192_S8192_d1 : S8192x8192.ReducesTo [1] S8192
  reducesTo_S8192x1_S_d0_1 : S8192x1.ReducesTo [0, 1] S_
  gather_S100000x128_S8192x1_S8192x128_1_0_n_n_0_1_1128_wf : GatherDims.WF S100000x128 S8192x1 S8192x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x128_S128x8192_S8192x8192_1_0_0_1_n_n_wf : DotDims.WF S8192x128 S128x8192 S8192x8192 [1] [0] [0] [1] [] []

variable [Facts₀]

def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BodyPieces.lean ====
/-
  What one run of the kernel body leaves behind, as values.

  The body keeps, in a scratch column of 1024 entries, a running row sum that it carries from one key block to the
  next; it stores a whole [1024, 2048] block of the first result at every grid point, and copies the scratch column
  into the second result's block at the last key block of a row of the grid.  Whatever the case of its two
  conditionals, what it leaves in each buffer is the payload of the last store that covers the buffer:

    first result's block  =  pay4 (temperature column, positive-score row)              -- every case
    scratch column        =  pay3 (query rows, key rows, temperature column, old scratch)
                             where at the first key block the old scratch is the zero column pay1
    second result's block =  the scratch column just stored                             -- last key block only

  Every store and every load goes through the whole buffer at offset zero, so a load reads exactly what the last
  store left.  The statements hold for any float values.
-/
import proofs.«108263_j62182536511796_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyPieces

open Cert.KernelIdeal Cert.KernelIdeal.Gen

variable {F : FTy → Type} [FloatOps F]

/-- The offsets of every access of the body are zero on both axes. -/
theorem hz : (![0, 0] : Fin 2 → Nat) = fun _ => 0 := funext fun a => by fin_cases a <;> rfl

/-! ## First key block of a row of the grid: the scratch is zeroed first -/

/-- The scratch column after the first key block: the zero column plus this block's row sums. -/
theorem scratch_first (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .bf16) (x1 : Vec F S2048x128 .bf16) (x2 : Vec F S1x2048 .f32) (x3 : Vec F S1024x1 .f32) :
    sout0_A_0 c i arg2 harg2 arg3 harg3 arg4 harg4 arg5 harg5 arg6 harg6 arg7 harg7 arg8 harg8 hc0 hc1 x0 x1 x2 x3 = k0_pay3 x0 x1 x3 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-- The first result's block after the first key block. -/
theorem block_first (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .bf16) (x1 : Vec F S2048x128 .bf16) (x2 : Vec F S1x2048 .f32) (x3 : Vec F S1024x1 .f32) :
    out0_A_4 c i arg2 harg2 arg3 harg3 arg4 harg4 arg5 harg5 arg6 harg6 arg7 harg7 arg8 harg8 hc0 hc1 x0 x1 x2 x3 = k0_pay4 x3 x2 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-! ## A middle key block: the scratch is carried -/

/-- The scratch column after a middle key block: what the block before left plus this block's row sums. -/
theorem scratch_middle (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .bf16) (x1 : Vec F S2048x128 .bf16) (x2 : Vec F S1x2048 .f32) (x3 : Vec F S1024x1 .f32) (xs0 : Vec F S1024x1 .f32) :
    sout0_B_0 c i arg2 harg2 arg3 harg3 arg4 harg4 arg5 harg5 arg6 harg6 arg7 harg7 arg8 harg8 hc0 hc1 x0 x1 x2 x3 xs0 = k0_pay3 x0 x1 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-- The first result's block after a middle key block. -/
theorem block_middle (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .bf16) (x1 : Vec F S2048x128 .bf16) (x2 : Vec F S1x2048 .f32) (x3 : Vec F S1024x1 .f32) (xs0 : Vec F S1024x1 .f32) :
    out0_B_4 c i arg2 harg2 arg3 harg3 arg4 harg4 arg5 harg5 arg6 harg6 arg7 harg7 arg8 harg8 hc0 hc1 x0 x1 x2 x3 xs0 = k0_pay4 x3 x2 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-! ## Last key block: the scratch is carried, then copied out -/

/-- The scratch column after the last key block. -/
theorem scratch_last (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .bf16) (x1 : Vec F S2048x128 .bf16) (x2 : Vec F S1x2048 .f32) (x3 : Vec F S1024x1 .f32) (xs0 : Vec F S1024x1 .f32) :
    sout0_C_0 c i arg2 harg2 arg3 harg3 arg4 harg4 arg5 harg5 arg6 harg6 arg7 harg7 arg8 harg8 hc0 hc1 x0 x1 x2 x3 xs0 = k0_pay3 x0 x1 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-- The first result's block after the last key block. -/
theorem block_last (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .bf16) (x1 : Vec F S2048x128 .bf16) (x2 : Vec F S1x2048 .f32) (x3 : Vec F S1024x1 .f32) (xs0 : Vec F S1024x1 .f32) :
    out0_C_4 c i arg2 harg2 arg3 harg3 arg4 harg4 arg5 harg5 arg6 harg6 arg7 harg7 arg8 harg8 hc0 hc1 x0 x1 x2 x3 xs0 = k0_pay4 x3 x2 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

/-- The second result's block after the last key block: the scratch column as just stored. -/
theorem total_last (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .bf16) (x1 : Vec F S2048x128 .bf16) (x2 : Vec F S1x2048 .f32) (x3 : Vec F S1024x1 .f32) (xs0 : Vec F S1024x1 .f32) :
    out0_C_5 c i arg2 harg2 arg3 harg3 arg4 harg4 arg5 harg5 arg6 harg6 arg7 harg7 arg8 harg8 hc0 hc1 x0 x1 x2 x3 xs0 = k0_pay3 x0 x1 x3 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg8.read_unread, View.ld_unit_zero (S := S1024x128) hz, View.ld_unit_zero (S := S2048x128) hz, View.ld_unit_zero (S := S1x2048) hz, View.ld_unit_zero (S := S1024x1) hz]

end Cert.KernelIdeal.BodyPieces
end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«108263_j62182536511796_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«108263_j62182536511796_2_alg».proof.Proof.LibKeepdims
import proofs.«108263_j62182536511796_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibGramNorms.lean ====
/-
  Squared row norms and the Gram product of two matrices, read at an index on the extended reals.

  For matrices `a : [M, K]` and `b : [N, K]`, at the ideal values:
  • a sum of an `[a, b]` array along its last axis holds at `p` the sum over `f` of the array at `(p, f)`;
  • the squared norms of the rows of `a`, kept as a column `[M, 1]` and stretched over `N` columns, hold at
    `(p, f)` the sum over `d` of `a (p, d) · a (p, d)`, whatever the column `f`;
  • the squared norms of the rows of `b`, kept as a column `[N, 1]`, transposed to a row `[1, N]` and stretched
    over `M` rows, hold at `(p, f)` the sum over `d` of `b (f, d) · b (f, d)`, whatever the row `p`;
  • the product of `a` with the transpose of `b`, accumulated into zero, holds at `(p, f)` the inner product of
    row `p` of `a` with row `f` of `b`: the Gram matrix of the two families of rows.
  Each is a chain of layout reads (a cast keeps the row-major position, a broadcast reads coordinate 0 on a unit
  axis, a transpose swaps the two coordinates) ending in a `Fin`-indexed sum.
-/
import Idealize.ShloMosaic.PureOps.Ideal.Laws
import Idealize.ShloMosaic.Lib.ValueIdx
import Idealize.ShloMosaic.Lib.ValueLayout
import proofs.«108263_j62182536511796_2_alg».proof.Proof.LibKeepdims
import proofs.«108263_j62182536511796_2_alg».proof.Proof.LibInnerProducts

noncomputable section

namespace Cert.LibGramNorms

open Idealize.ShloMosaic Idealize.ShloMosaic.ValueIdx
open scoped BigOperators

/-- A float sum of an `[a, b]` array along its last axis is, at `p`, the sum over `f` of the array at `(p, f)`. -/
theorem row_sum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ x acc h hφ hacc (ix1 p) = ∑ f : Fin b, x (ix2 p f) := by
  refine (Ideal.multiReduction_add_single x acc h hφ hacc (ix1 p)).trans ?_
  show ∑ f : Fin b, x (h.lift (ix1 p) f) = ∑ f : Fin b, x (ix2 p f)
  refine Finset.sum_congr rfl fun f _ => congrArg x (funext fun ax => Fin.ext ?_)
  match ax with
  | ⟨0, _⟩ => rfl
  | ⟨1, _⟩ => rfl

/-- The squared norms of the rows of `a : [M, K]`, kept as a column and stretched over `N` columns: at `(p, f)` the
    sum over `d` of `a (p, d) · a (p, d)`. -/
theorem sqnorm_column_apply {M K N : ℕ} {φ : FTy} (a : FVec Ideal ⟨2, ![M, K]⟩ φ) (acc : BitVec φ.bits)
    (hr : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (f : Fin N) :
    broadcastTo ⟨2, ![M, N]⟩
        (shapeCast ⟨2, ![M, 1]⟩ (multiReduction .add [1] ⟨1, ![M]⟩ (mulf a a) acc hr hφ hacc) hc) hb (ix2 p f)
      = ∑ d : Fin K, a (ix2 p d) * a (ix2 p d) :=
  ((Cert.LibKeepdims.broadcastTo_a1_ab_apply _ hb p f).trans
      (Cert.LibKeepdims.shapeCast_a_a1_apply _ hc p (0 : Fin 1))).trans
    (row_sum_apply (mulf a a) acc hr hφ hacc p)

/-- The squared norms of the rows of `b : [N, K]`, kept as a column, transposed to a row and stretched over `M` rows:
    at `(p, f)` the sum over `d` of `b (f, d) · b (f, d)`. -/
theorem sqnorm_row_apply {M K N : ℕ} {φ : FTy} (b : FVec Ideal ⟨2, ![N, K]⟩ φ) (acc : BitVec φ.bits)
    (hr : (⟨2, ![N, K]⟩ : Shape).Reduces [1] ⟨1, ![N]⟩) (hφ : FKind.Formats φ) (hacc : acc = FKind.add.neutral φ hφ)
    (hc : (⟨1, ![N]⟩ : Shape).ShapeCasts ⟨2, ![N, 1]⟩) (ht : (⟨2, ![N, 1]⟩ : Shape).Transposes [1, 0] ⟨2, ![1, N]⟩)
    (hb : (⟨2, ![1, N]⟩ : Shape).Broadcasts ⟨2, ![M, N]⟩) (p : Fin M) (f : Fin N) :
    broadcastTo ⟨2, ![M, N]⟩
        (transpose ⟨2, ![1, N]⟩ [1, 0]
          (shapeCast ⟨2, ![N, 1]⟩ (multiReduction .add [1] ⟨1, ![N]⟩ (mulf b b) acc hr hφ hacc) hc) ht) hb (ix2 p f)
      = ∑ d : Fin K, b (ix2 f d) * b (ix2 f d) :=
  (((broadcastTo_1b_ab_apply _ hb p f).trans (transpose_ix2_apply _ ht (0 : Fin 1) f)).trans
      (Cert.LibKeepdims.shapeCast_a_a1_apply _ hc f (0 : Fin 1))).trans
    (row_sum_apply (mulf b b) acc hr hφ hacc f)

/-- The product of `a : [M, K]` with the transpose of `b : [N, K]`, accumulated into zero: at `(p, f)` the inner
    product of row `p` of `a` with row `f` of `b`. `D` is any record of the plain dimension numbers. -/
theorem gram_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] b ht) (constant (F := Ideal) ⟨2, ![M, N]⟩ .f32 0x00000000#32) (ix2 p f)
      = ∑ d : Fin K, a (ix2 p d) * b (ix2 f d) := by
  refine (Idealize.ShloMosaic.InnerProducts.matmul_zero_apply D hD prec a _ p f).trans ?_
  exact Finset.sum_congr rfl fun d _ => congrArg (a (ix2 p d) * ·) (transpose_ix2_apply b ht d f)

end Cert.LibGramNorms

end
-- ==== Proof.BodyAt.lean ====
/-
  The body's two payloads read at an index, on the extended reals.

  For one grid point, with x the block of 1024 query rows, y the block of 2048 key rows (128 features each), t the
  column of the 1024 queries' temperatures, s the row of the 2048 keys' positive scores and acc the scratch column:

    pay4 t s  at (p, q)  =  exp (s(q) / t(p))
    pay3 x y t acc  at (p, ·)  =  acc(p) + sum over q < 2048 of exp ((sum over d of x(p, d) · y(q, d)) / t(p))

  The first is pointwise under two broadcasts.  The second is the matrix product of x with the transpose of y into
  a zero accumulator (an inner product of two rows per entry), divided by the broadcast temperature column,
  exponentiated, summed along each row, recast from a vector to a column, and added to the scratch.
  Changes of float format are the identity here, so the bf16 rows are just their values.
-/
import proofs.«108263_j62182536511796_2_alg».proof.Proof.Gen.KernelIdeal.Skeleton
import proofs.«108263_j62182536511796_2_alg».proof.Proof.LibKeepdims
import proofs.«108263_j62182536511796_2_alg».proof.Proof.LibRowReduce
import proofs.«108263_j62182536511796_2_alg».proof.Proof.LibGramNorms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.BodyAt

open Cert.KernelIdeal Cert.KernelIdeal.Gen

/-- The first result's payload at row `p`, column `q` of the block: the exponential of key `q`'s positive score
    over query `p`'s temperature. -/
theorem pay4_at (t : Vec Ideal S1024x1 .f32) (s : Vec Ideal S1x2048 .f32) (p : Fin 1024) (q : Fin 2048) :
    k0_pay4 t s (ix2 p q) = Ideal.exp (Ideal.div (s (ix2 (0 : Fin 1) q)) (t (ix2 p (0 : Fin 1)))) := by
  unfold k0_pay4 k0_pay2
  show Ideal.exp (Ideal.div (broadcastTo S1024x2048 (shapeCast S1x2048 s _) _ (ix2 p q))
    (broadcastTo S1024x2048 (shapeCast S1024x1 t _) _ (ix2 p q))) = _
  rw [broadcastTo_1b_ab_apply, Cert.LibKeepdims.broadcastTo_a1_ab_apply, shapeCast_self, shapeCast_self]

/-- What one grid point adds to row `p` of the scratch: the sum, over the block's 2048 keys, of the exponential
    of the inner product of query row `p` with the key row over the query's temperature. -/
def rowWeights (x : Vec Ideal S1024x128 .bf16) (y : Vec Ideal S2048x128 .bf16) (t : Vec Ideal S1024x1 .f32)
    (p : Fin 1024) : EReal :=
  ∑ q : Fin 2048, Ideal.exp (Ideal.div (∑ d : Fin 128, x (ix2 p d) * y (ix2 q d)) (t (ix2 p (0 : Fin 1))))

/-- The scratch payload at row `p`: the old scratch plus the point's row weights. -/
theorem pay3_at (x : Vec Ideal S1024x128 .bf16) (y : Vec Ideal S2048x128 .bf16) (t acc : Vec Ideal S1024x1 .f32)
    (p : Fin 1024) (u : Fin 1) :
    k0_pay3 x y t acc (ix2 p u) = acc (ix2 p u) + rowWeights x y t p := by
  unfold k0_pay3 k0_pay2 rowWeights
  rw [shapeCast_self]
  refine (addf_apply _ _ _).trans ?_
  refine congrArg (acc (ix2 p u) + ·) ?_
  refine (Cert.LibKeepdims.shapeCast_a_a1_apply _ _ p u).trans ?_
  refine (Cert.LibRowReduce.rowSum_apply _ _ p).trans ?_
  refine Finset.sum_congr rfl fun q _ => ?_
  show Ideal.exp (Ideal.div (matmul (F := Ideal) dot_S1024x128_S128x2048_S1024x2048_1_0_0_1_n_n none (shapeCast S1024x128 x _)
      (transpose S128x2048 [1, 0] (shapeCast S2048x128 y _) _) (constant (F := Ideal) S1024x2048 .f32 0x00000000#32) (ix2 p q))
    (broadcastTo S1024x2048 (shapeCast S1024x1 t _) _ (ix2 p q))) = _
  refine congrArg Ideal.exp (congr (congrArg Ideal.div ?_) ?_)
  · refine (Cert.LibGramNorms.gram_apply dot_S1024x128_S128x2048_S1024x2048_1_0_0_1_n_n rfl none _ _ _ p q).trans ?_
    rw [shapeCast_self, shapeCast_self]
  · rw [Cert.LibKeepdims.broadcastTo_a1_ab_apply, shapeCast_self]

end Cert.KernelIdeal.BodyAt

end
-- ==== Proof.BlockReads.lean ====
/-
  Where the blocks of a grid point sit in the arrays.

  The grid has 8 × 4 points; point t stands for query block t / 4 and key block t % 4.  At point t the body reads
  1024 query rows starting at row 1024 · (t / 4), 2048 key rows starting at row 2048 · (t % 4), the positive scores
  of those keys and the temperatures of those queries; it writes block (t / 4, t % 4) of the first result and block
  t / 4 of the second.  Each lemma reads one block of one array at a position inside the block as the whole array
  (as the region finds it) at the matching position.  The arrays themselves get short names here.
-/
import proofs.«108263_j62182536511796_2_alg».proof.Proof.Gen.KernelIdeal.Frame
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.BlockReads

open Cert.KernelIdeal Cert.KernelIdeal.Gen

variable (m : (ℓ : Loc nD τ sig) → Buf (Elt Ideal) ℓ)

/-- The query feature rows as the region finds them: row `r`, feature `d`. -/
def queries (c : Dev nD) (r : Fin 8192) (d : Fin 128) : EReal := V m c main_v61 (ix2 r d)
/-- The key feature rows as the region finds them. -/
def keys (c : Dev nD) (k : Fin 8192) (d : Fin 128) : EReal := V m c main_v62 (ix2 k d)
/-- The keys' positive scores as the region finds them (one row of 8192). -/
def scores (c : Dev nD) (k : Fin 8192) : EReal := V m c main_v60 (ix2 (0 : Fin 1) k)
/-- The queries' temperatures as the region finds them (one column of 8192). -/
def temps (c : Dev nD) (r : Fin 8192) : EReal := V m c main_v57 (ix2 r (0 : Fin 1))

/-- The printed index maps over the grid: which block of each array point `t` works on. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = 0
    ∧ win0_4.index t (0 : Fin 2) = t.val / 4 ∧ win0_4.index t (1 : Fin 2) = t.val % 4
    ∧ win0_5.index t (0 : Fin 2) = t.val / 4 ∧ win0_5.index t (1 : Fin 2) = 0 :=
  (by decide +kernel : ∀ t : Fin grid0.N, _)

/-- Row `p` of the query block at point `t` is query row `1024 · (t / 4) + p`. -/
theorem queries_at (c : Dev nD) (t : Fin cfg0.N) (p : Fin 1024) (d : Fin 128) (r : Fin 8192)
    (hr : r.val = 1024 * (t.val / 4) + p.val) :
    (iblk m c 0 t : Vec Ideal S1024x128 .bf16) (ix2 p d) = queries m c r d := by
  obtain ⟨e0, e1, -⟩ := idx_facts t
  unfold iblk queries
  rw [View.read_apply]
  show V m c main_v61 _ = V m c main_v61 _
  refine congrArg (V m c main_v61) (funext fun a => Fin.ext ?_)
  match a with
  | ⟨0, _⟩ => show win0_0.index t (0 : Fin 2) * 1024 + 1 * p.val = r.val; omega
  | ⟨1, _⟩ => show win0_0.index t (1 : Fin 2) * 128 + 1 * d.val = d.val; omega

/-- Row `q` of the key block at point `t` is key row `2048 · (t % 4) + q`. -/
theorem keys_at (c : Dev nD) (t : Fin cfg0.N) (q : Fin 2048) (d : Fin 128) (k : Fin 8192)
    (hk : k.val = 2048 * (t.val % 4) + q.val) :
    (iblk m c 1 t : Vec Ideal S2048x128 .bf16) (ix2 q d) = keys m c k d := by
  obtain ⟨-, -, e0, e1, -⟩ := idx_facts t
  unfold iblk keys
  rw [View.read_apply]
  show V m c main_v62 _ = V m c main_v62 _
  refine congrArg (V m c main_v62) (funext fun a => Fin.ext ?_)
  match a with
  | ⟨0, _⟩ => show win0_1.index t (0 : Fin 2) * 2048 + 1 * q.val = k.val; omega
  | ⟨1, _⟩ => show win0_1.index t (1 : Fin 2) * 128 + 1 * d.val = d.val; omega

/-- Entry `q` of the score block at point `t` is the score of key `2048 · (t % 4) + q`. -/
theorem scores_at (c : Dev nD) (t : Fin cfg0.N) (q : Fin 2048) (k : Fin 8192)
    (hk : k.val = 2048 * (t.val % 4) + q.val) :
    (iblk m c 2 t : Vec Ideal S1x2048 .f32) (ix2 (0 : Fin 1) q) = scores m c k := by
  obtain ⟨-, -, -, -, e0, e1, -⟩ := idx_facts t
  unfold iblk scores
  rw [View.read_apply]
  show V m c main_v60 _ = V m c main_v60 _
  refine congrArg (V m c main_v60) (funext fun a => Fin.ext ?_)
  match a with
  | ⟨0, _⟩ => show win0_2.index t (0 : Fin 2) * 1 + 1 * 0 = 0; omega
  | ⟨1, _⟩ => show win0_2.index t (1 : Fin 2) * 2048 + 1 * q.val = k.val; omega

/-- Entry `p` of the temperature block at point `t` is the temperature of query `1024 · (t / 4) + p`. -/
theorem temps_at (c : Dev nD) (t : Fin cfg0.N) (p : Fin 1024) (r : Fin 8192)
    (hr : r.val = 1024 * (t.val / 4) + p.val) :
    (iblk m c 3 t : Vec Ideal S1024x1 .f32) (ix2 p (0 : Fin 1)) = temps m c r := by
  obtain ⟨-, -, -, -, -, -, e0, e1, -⟩ := idx_facts t
  unfold iblk temps
  rw [View.read_apply]
  show V m c main_v57 _ = V m c main_v57 _
  refine congrArg (V m c main_v57) (funext fun a => Fin.ext ?_)
  match a with
  | ⟨0, _⟩ => show win0_3.index t (0 : Fin 2) * 1024 + 1 * p.val = r.val; omega
  | ⟨1, _⟩ => show win0_3.index t (1 : Fin 2) * 1 + 1 * 0 = 0; omega

end Cert.KernelIdeal.BlockReads

end
-- ==== Proof.Ratings.lean ====
/-
  The quantities the two programs compute, as functions on the extended reals, and the one law that joins a sum
  taken block by block to the sum taken at once.

  For feature rows a(r, ·) of n queries and b(k, ·) of m keys, a temperature t(r) per query and a positive score
  p(k) per key:

    sim r k     = sum over d of a(r, d) · b(k, d)              the similarity of query r and key k
    weight r k  = exp (sim r k / t r)
    tot r       = sum over all keys k of weight r k             the total rating of query r
    posRating r k = exp (p k / t r)                             the positive rating, one entry per (query, key)

  A kernel that walks the keys in consecutive blocks adds each block's weights to a running sum.  With the keys
  numbered by naturals (a weight past the last key counts zero), the running sum after the first N keys is
  partialTot r N, a block of b more keys takes it to partialTot r (N + b), and once every key is in it is tot r.
  Only associativity and commutativity of the addition are used, so nothing has to be finite.
-/
import Mathlib.Algebra.BigOperators.Fin
import Mathlib.Algebra.BigOperators.Group.Finset.Basic
import Idealize.ShloMosaic.PureOps.Ideal

noncomputable section

open scoped BigOperators

namespace Cert.Ratings

open Idealize.ShloMosaic

variable {n m K : ℕ}

/-- The similarity of query `r` and key `k`: the inner product of their feature rows. -/
def sim (a : Fin n → Fin K → EReal) (b : Fin m → Fin K → EReal) (r : Fin n) (k : Fin m) : EReal :=
  ∑ d : Fin K, a r d * b k d

/-- The weight of key `k` for query `r`: the exponential of their similarity over the query's temperature. -/
def weight (a : Fin n → Fin K → EReal) (b : Fin m → Fin K → EReal) (t : Fin n → EReal) (r : Fin n) (k : Fin m) : EReal :=
  Ideal.exp (Ideal.div (sim a b r k) (t r))

/-- The total rating of query `r`: the sum of its weights over every key. -/
def tot (a : Fin n → Fin K → EReal) (b : Fin m → Fin K → EReal) (t : Fin n → EReal) (r : Fin n) : EReal :=
  ∑ k : Fin m, weight a b t r k

/-- The positive rating of query `r` against key `k`: the exponential of the key's positive score over the
    query's temperature. -/
def posRating (p : Fin m → EReal) (t : Fin n → EReal) (r : Fin n) (k : Fin m) : EReal :=
  Ideal.exp (Ideal.div (p k) (t r))

/-- The weight at a natural key position: zero past the last key. -/
def weightAt (a : Fin n → Fin K → EReal) (b : Fin m → Fin K → EReal) (t : Fin n → EReal) (r : Fin n) (k : ℕ) : EReal :=
  if h : k < m then weight a b t r ⟨k, h⟩ else 0

/-- The running sum of query `r` over the first `N` keys. -/
def partialTot (a : Fin n → Fin K → EReal) (b : Fin m → Fin K → EReal) (t : Fin n → EReal) (r : Fin n) (N : ℕ) : EReal :=
  ∑ k ∈ Finset.range N, weightAt a b t r k

variable (a : Fin n → Fin K → EReal) (b : Fin m → Fin K → EReal) (t : Fin n → EReal) (r : Fin n)

/-- A position inside the keys carries that key's weight. -/
theorem weightAt_of_lt (k : ℕ) (h : k < m) : weightAt a b t r k = weight a b t r ⟨k, h⟩ := dif_pos h

/-- No key, no sum. -/
theorem partialTot_zero : partialTot a b t r 0 = 0 := Finset.sum_range_zero _

/-- A block of `c` more keys, starting at position `N`, takes the running sum from `N` keys to `N + c`. -/
theorem partialTot_add (N c : ℕ) :
    partialTot a b t r N + ∑ q : Fin c, weightAt a b t r (N + q.val) = partialTot a b t r (N + c) := by
  unfold partialTot
  rw [Finset.sum_range_add, Finset.sum_range (fun x => weightAt a b t r (N + x))]

/-- The running sum over every key is the total rating. -/
theorem partialTot_all : partialTot a b t r m = tot a b t r := by
  unfold partialTot tot
  rw [Finset.sum_range]
  exact Finset.sum_congr rfl fun k _ => weightAt_of_lt a b t r k.val k.isLt

end Cert.Ratings

end
-- ==== Proof.RunningSum.lean ====
/-
  The scratch column is the running sum of the weights, row by row.

  Going through the grid in order, the points of one query block come four in a row, one per key block.  After the
  point of key block j (counting from 0), row p of the scratch column holds, for query 1024 · (t / 4) + p, the sum of
  the weights of the first 2048 · (j + 1) keys: the first point of the four starts from the zero column, every later
  one from what the point before left.  By induction on the point.
-/
import proofs.«108263_j62182536511796_2_alg».proof.Proof.BodyPieces
import proofs.«108263_j62182536511796_2_alg».proof.Proof.BodyAt
import proofs.«108263_j62182536511796_2_alg».proof.Proof.BlockReads
import proofs.«108263_j62182536511796_2_alg».proof.Proof.Ratings

noncomputable section

open Idealize.ShloMosaic Idealize.ShloMosaic.TcCoe Idealize.ShloMosaic.ValueIdx Idealize.SL.Sem
open Idealize.ShloMosaic.Pipeline (Dat)
open scoped BigOperators

namespace Cert.KernelIdeal.RunningSum

open Cert.KernelIdeal Cert.KernelIdeal.Gen Cert.KernelIdeal.BlockReads

variable (m : (ℓ : Loc nD τ sig) → Buf (Elt Ideal) ℓ)

/-- The zero column the first point of a query block stores first. -/
theorem zero_column (p : Fin 1024) (u : Fin 1) : (k0_pay1 (F := Ideal)) (ix2 p u) = 0 := by
  unfold k0_pay1
  rw [shapeCast_self]
  exact Ideal.ofBits_zero_f32

/-- The row sums one point adds: for query `r` (row `p` of the point's query block `x`), the weights of the 2048 keys
    of key block `j` (the rows of `y`), over the query's temperature (row `p` of `tt`). -/
theorem block_weights (a b : Fin 8192 → Fin 128 → EReal) (t' : Fin 8192 → EReal) (j : ℕ) (hj : j < 4)
    (x : Vec Ideal S1024x128 .bf16) (y : Vec Ideal S2048x128 .bf16) (tt : Vec Ideal S1024x1 .f32)
    (p : Fin 1024) (r : Fin 8192) (hx : ∀ d, x (ix2 p d) = a r d)
    (hy : ∀ (q : Fin 2048) (d : Fin 128) (k : Fin 8192), k.val = 2048 * j + q.val → y (ix2 q d) = b k d)
    (ht : tt (ix2 p (0 : Fin 1)) = t' r) :
    BodyAt.rowWeights x y tt p = ∑ q : Fin 2048, Ratings.weightAt a b t' r (2048 * j + q.val) := by
  unfold BodyAt.rowWeights
  refine Finset.sum_congr rfl fun q _ => ?_
  have hk : 2048 * j + q.val < 8192 := by have := q.isLt; omega
  rw [Ratings.weightAt_of_lt _ _ _ _ _ hk]
  unfold Ratings.weight Ratings.sim
  refine congrArg Ideal.exp (congr (congrArg Ideal.div (Finset.sum_congr rfl fun d _ => ?_)) ht)
  exact congr (congrArg (· * ·) (hx d)) (hy q d ⟨_, hk⟩ rfl)

/-- The same at grid point `t`, whose blocks are read off the arrays. -/
theorem point_weights (c : Dev nD) (t : Fin cfg0.N) (p : Fin 1024) (r : Fin 8192)
    (hr : r.val = 1024 * (t.val / 4) + p.val) :
    BodyAt.rowWeights (iblk m c 0 t) (iblk m c 1 t) (iblk m c 3 t) p
      = ∑ q : Fin 2048, Ratings.weightAt (queries m c) (keys m c) (temps m c) r (2048 * (t.val % 4) + q.val) :=
  block_weights (queries m c) (keys m c) (temps m c) (t.val % 4) (Nat.mod_lt _ (by decide)) (iblk m c 0 t) (iblk m c 1 t)
    (iblk m c 3 t) p r (fun d => queries_at m c t p d r hr) (fun q d k hk => keys_at m c t q d k hk) (temps_at m c t p r hr)

/-- After point `n`, row `p` of the scratch column is the running sum of its query over the keys of the key blocks
    done so far in this query block. -/
theorem scratch_eq (c : Dev nD) (n : ℕ) : ∀ (h : n < cfg0.N) (p : Fin 1024) (u : Fin 1) (r : Fin 8192),
    r.val = 1024 * (n / 4) + p.val →
    (outsAt0 m c n h).2.2 (ix2 p u)
      = Ratings.partialTot (queries m c) (keys m c) (temps m c) r (2048 * (n % 4 + 1)) := by
  induction n using Nat.strong_induction_on with
  | _ n ih =>
    intro h p u r hr
    have hN : n < 32 := lt_of_lt_of_eq h (show cfg0.N = 32 from N_0)
    by_cases h0 : n % 4 = 0
    · have h1 : ¬n % 4 = 3 := by omega
      rw [outsAt0_A m c ⟨n, h⟩ h0 h1]
      dsimp only
      refine (congrFun (BodyPieces.scratch_first (F := Ideal) c (grid0.coords ⟨n, h⟩) (ms0_0 ⟨n, h⟩) (hs0_0 ⟨n, h⟩)
        (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩)
        (ms0_5 ⟨n, h⟩) (hs0_5 ⟨n, h⟩) scM0_0 (Memref.isWhole_whole _) ((hcond0_0 ⟨n, h⟩).mpr h0)
        (fun hh => h1 ((hcond0_1 ⟨n, h⟩).mp hh)) (iblk m c 0 ⟨n, h⟩) (iblk m c 1 ⟨n, h⟩) (iblk m c 2 ⟨n, h⟩) (iblk m c 3 ⟨n, h⟩))
        (ix2 p u)).trans ?_
      refine (BodyAt.pay3_at (iblk m c 0 ⟨n, h⟩) (iblk m c 1 ⟨n, h⟩) (iblk m c 3 ⟨n, h⟩) (k0_pay1 (F := Ideal)) p u).trans ?_
      rw [zero_column, point_weights m c ⟨n, h⟩ p r hr]
      have hn : (⟨n, h⟩ : Fin cfg0.N).val % 4 = 0 := h0
      rw [hn, zero_add]
      have e := Ratings.partialTot_add (queries m c) (keys m c) (temps m c) r 0 2048
      rw [Ratings.partialTot_zero, zero_add] at e
      exact e
    · have hpos : n ≠ 0 := fun hz => h0 (by rw [hz])
      have hprev : n - 1 < n := by omega
      have hr' : r.val = 1024 * ((n - 1) / 4) + p.val := by omega
      have acc := ih (n - 1) hprev (Nat.lt_of_le_of_lt (Nat.sub_le _ _) h) p u r hr'
      have hstep : 2048 * ((n - 1) % 4 + 1) = 2048 * (n % 4) := by omega
      rw [hstep] at acc
      have e := Ratings.partialTot_add (queries m c) (keys m c) (temps m c) r (2048 * (n % 4)) 2048
      have hlen : 2048 * (n % 4) + 2048 = 2048 * (n % 4 + 1) := by omega
      rw [hlen] at e
      by_cases h1 : n % 4 = 3
      · rw [outsAt0_C m c ⟨n, h⟩ h0 h1]
        dsimp only
        refine (congrFun (BodyPieces.scratch_last (F := Ideal) c (grid0.coords ⟨n, h⟩) (ms0_0 ⟨n, h⟩) (hs0_0 ⟨n, h⟩)
          (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩)
          (ms0_5 ⟨n, h⟩) (hs0_5 ⟨n, h⟩) scM0_0 (Memref.isWhole_whole _) (fun hh => h0 ((hcond0_0 ⟨n, h⟩).mp hh))
          ((hcond0_1 ⟨n, h⟩).mpr h1) (iblk m c 0 ⟨n, h⟩) (iblk m c 1 ⟨n, h⟩) (iblk m c 2 ⟨n, h⟩) (iblk m c 3 ⟨n, h⟩)
          (outsAt0 m c (n - 1) (Nat.lt_of_le_of_lt (Nat.sub_le _ _) h)).2.2) (ix2 p u)).trans ?_
        refine (BodyAt.pay3_at (iblk m c 0 ⟨n, h⟩) (iblk m c 1 ⟨n, h⟩) (iblk m c 3 ⟨n, h⟩)
          (outsAt0 m c (n - 1) (Nat.lt_of_le_of_lt (Nat.sub_le _ _) h)).2.2 p u).trans ?_
        rw [acc, point_weights m c ⟨n, h⟩ p r hr]
        exact e
      · rw [outsAt0_B m c ⟨n, h⟩ h0 h1]
        dsimp only
        refine (congrFun (BodyPieces.scratch_middle (F := Ideal) c (grid0.coords ⟨n, h⟩) (ms0_0 ⟨n, h⟩) (hs0_0 ⟨n, h⟩)
          (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩)
          (ms0_5 ⟨n, h⟩) (hs0_5 ⟨n, h⟩) scM0_0 (Memref.isWhole_whole _) (fun hh => h0 ((hcond0_0 ⟨n, h⟩).mp hh))
          (fun hh => h1 ((hcond0_1 ⟨n, h⟩).mp hh)) (iblk m c 0 ⟨n, h⟩) (iblk m c 1 ⟨n, h⟩) (iblk m c 2 ⟨n, h⟩) (iblk m c 3 ⟨n, h⟩)
          (outsAt0 m c (n - 1) (Nat.lt_of_le_of_lt (Nat.sub_le _ _) h)).2.2) (ix2 p u)).trans ?_
        refine (BodyAt.pay3_at (iblk m c 0 ⟨n, h⟩) (iblk m c 1 ⟨n, h⟩) (iblk m c 3 ⟨n, h⟩)
          (outsAt0 m c (n - 1) (Nat.lt_of_le_of_lt (Nat.sub_le _ _) h)).2.2 p u).trans ?_
        rw [acc, point_weights m c ⟨n, h⟩ p r hr]
        exact e

end Cert.KernelIdeal.RunningSum

end
-- ==== Proof.Arrays.lean ====
/-
  The two result arrays of the region, whole.

  Every grid point writes back its block of the first result, and the 32 blocks tile the [8192, 8192] array: entry
  (r, k) ends holding the positive rating of query r against key k.  The second result's block of a query block is
  written back once, after its last key block, when the scratch column has every key in it: entry r ends holding the
  total rating of query r.  A block's entry (p, q) at point t is the array's entry (1024 · (t / 4) + p, 2048 · (t % 4) + q).
-/
import proofs.«108263_j62182536511796_2_alg».proof.Proof.RunningSum
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.Arrays

open Cert.KernelIdeal Cert.KernelIdeal.Gen Cert.KernelIdeal.BlockReads

variable (m : (ℓ : Loc nD τ sig) → Buf (Elt Ideal) ℓ)

/-- The first result: the positive rating of every query against every key. -/
def posArray (c : Dev nD) : S8192x8192.Idx → EReal :=
  fun i => Ratings.posRating (scores m c) (temps m c) (i 0) (i 1)

/-- The second result, as the region leaves it (a column): the total rating of every query. -/
def totColumn (c : Dev nD) : S8192x1.Idx → EReal :=
  fun i => Ratings.tot (queries m c) (keys m c) (temps m c) (i 0)

/-! ## The first result -/

/-- Whatever the case, the first result's staging buffer after point `t` holds the pointwise payload of the
    point's temperature and score blocks. -/
theorem block_eq (c : Dev nD) (t : Fin cfg0.N) :
    (outsAt0 m c t.val t.isLt).1 = k0_pay4 (iblk m c 3 t) (iblk m c 2 t) := by
  have hN : t.val < 32 := lt_of_lt_of_eq t.isLt (show cfg0.N = 32 from N_0)
  by_cases h0 : t.val % 4 = 0
  · have h1 : ¬t.val % 4 = 3 := by omega
    rw [outsAt0_A m c t h0 h1]
    dsimp only
    exact BodyPieces.block_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0)
      (fun hh => h1 ((hcond0_1 t).mp hh)) (iblk m c 0 t) (iblk m c 1 t) (iblk m c 2 t) (iblk m c 3 t)
  · by_cases h1 : t.val % 4 = 3
    · rw [outsAt0_C m c t h0 h1]
      dsimp only
      exact BodyPieces.block_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh))
        ((hcond0_1 t).mpr h1) (iblk m c 0 t) (iblk m c 1 t) (iblk m c 2 t) (iblk m c 3 t) (outsAt0 m c (t.val - 1) (Nat.lt_of_le_of_lt (Nat.sub_le _ _) t.isLt)).2.2
    · rw [outsAt0_B m c t h0 h1]
      dsimp only
      exact BodyPieces.block_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh))
        (fun hh => h1 ((hcond0_1 t).mp hh)) (iblk m c 0 t) (iblk m c 1 t) (iblk m c 2 t) (iblk m c 3 t) (outsAt0 m c (t.val - 1) (Nat.lt_of_le_of_lt (Nat.sub_le _ _) t.isLt)).2.2

/-- Entry `(p, q)` of the block point `t` stores is the positive rating of query `r` against key `k`, for the
    query and key the block's position stands for. -/
theorem pos_block (c : Dev nD) (t : Fin cfg0.N) (p : Fin 1024) (q : Fin 2048) (r k : Fin 8192)
    (hr : r.val = 1024 * (t.val / 4) + p.val) (hk : k.val = 2048 * (t.val % 4) + q.val) :
    k0_pay4 (iblk m c 3 t) (iblk m c 2 t) (ix2 p q) = Ratings.posRating (scores m c) (temps m c) r k := by
  refine (BodyAt.pay4_at (iblk m c 3 t) (iblk m c 2 t) p q).trans ?_
  unfold Ratings.posRating
  rw [scores_at m c t q k hk, temps_at m c t p r hr]

set_option maxHeartbeats 4000000 in
/-- What point `t` writes back is block `t` of the positive ratings. -/
theorem flushed_pos (c : Dev nD) (t : Fin cfg0.N) :
    (dats m 0 c).flushed 4 t = ((cfg0.win 4).blk t).view.read (Elt Ideal) (posArray m c) := by
  obtain ⟨-, -, -, -, -, -, -, -, e0, e1, -⟩ := idx_facts t
  show (cfg0.win 4).cut (grid0.coords t) ((dats m 0 c).after 4 t) = _
  rw [after0_4, block_eq]
  funext j
  rw [View.read_apply]
  show k0_pay4 (iblk m c 3 t) (iblk m c 2 t) j = posArray m c (((cfg0.win 4).blk t).view.emb j)
  have hj : j = ix2 (j 0) (j 1) := eq_ix2 (n0 := 1024) (n1 := 2048) j
  refine (congrArg (k0_pay4 (iblk m c 3 t) (iblk m c 2 t)) hj).trans ?_
  refine pos_block m c t (j 0) (j 1) ((((cfg0.win 4).blk t).view.emb j) 0) ((((cfg0.win 4).blk t).view.emb j) 1) ?_ ?_
  · show win0_4.index t (0 : Fin 2) * 1024 + 1 * (j 0).val = 1024 * (t.val / 4) + (j 0).val; omega
  · show win0_4.index t (1 : Fin 2) * 2048 + 1 * (j 1).val = 2048 * (t.val % 4) + (j 1).val; omega

/-- An index of the first result is in point `t`'s block iff each coordinate is in the block's range. -/
theorem mem_blk_pos (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v63_0).slice (win0_4.rect t)).set ↔ _
  rw [View.set_slice_whole, Rect.mem_set_unit]
  exact Iff.rfl

/-- The first result after the region: the positive ratings, everywhere. -/
theorem final_pos (c : Dev nD) : (dats m 0 c).arrAt 4 cfg0.N = posArray m c :=
  (dats m 0 c).arrAt_eq_of_cover 4 (posArray m c) (fun t _ => flushed_pos m c t) fun i => by
    have h0 : (i 0).val < 8192 := (i 0).isLt
    have h1 : (i 1).val < 8192 := (i 1).isLt
    have hN : cfg0.N = 32 := N_0
    refine ⟨⟨4 * ((i 0).val / 1024) + (i 1).val / 2048, by rw [hN]; omega⟩, flush0_4 _, ?_⟩
    rw [mem_blk_pos]
    obtain ⟨-, -, -, -, -, -, -, -, e0, e1, -⟩ := idx_facts ⟨4 * ((i 0).val / 1024) + (i 1).val / 2048, by rw [hN]; omega⟩
    intro a
    match a with
    | ⟨0, _⟩ =>
      show win0_4.index _ (0 : Fin 2) * 1024 ≤ (i 0).val ∧ (i 0).val < win0_4.index _ (0 : Fin 2) * 1024 + 1024
      rw [e0]; dsimp only; omega
    | ⟨1, _⟩ =>
      show win0_4.index _ (1 : Fin 2) * 2048 ≤ (i 1).val ∧ (i 1).val < win0_4.index _ (1 : Fin 2) * 2048 + 2048
      rw [e1]; dsimp only; omega

/-! ## The second result -/

/-- After the last key block of a query block the second result's staging buffer holds the scratch column. -/
theorem total_eq_scratch (c : Dev nD) (t : Fin cfg0.N) (h1 : t.val % 4 = 3) :
    (outsAt0 m c t.val t.isLt).2.1 = (outsAt0 m c t.val t.isLt).2.2 := by
  have h0 : ¬t.val % 4 = 0 := by omega
  rw [outsAt0_C m c t h0 h1]
  dsimp only
  exact (BodyPieces.total_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh))
      ((hcond0_1 t).mpr h1) (iblk m c 0 t) (iblk m c 1 t) (iblk m c 2 t) (iblk m c 3 t) (outsAt0 m c (t.val - 1) (Nat.lt_of_le_of_lt (Nat.sub_le _ _) t.isLt)).2.2).trans
    (BodyPieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh))
      ((hcond0_1 t).mpr h1) (iblk m c 0 t) (iblk m c 1 t) (iblk m c 2 t) (iblk m c 3 t) (outsAt0 m c (t.val - 1) (Nat.lt_of_le_of_lt (Nat.sub_le _ _) t.isLt)).2.2).symm

set_option maxHeartbeats 4000000 in
/-- What a point that writes the second result back writes is its block of the total ratings. -/
theorem flushed_tot (c : Dev nD) (t : Fin cfg0.N) (hf : (cfg0.win 5).flush t = true) :
    (dats m 0 c).flushed 5 t = ((cfg0.win 5).blk t).view.read (Elt Ideal) (totColumn m c) := by
  have h1 : t.val % 4 = 3 := (flush0_5 t).mp hf
  obtain ⟨-, -, -, -, -, -, -, -, -, -, e0, e1⟩ := idx_facts t
  show (cfg0.win 5).cut (grid0.coords t) ((dats m 0 c).after 5 t) = _
  rw [after0_5, total_eq_scratch m c t h1]
  funext j
  rw [View.read_apply]
  show (outsAt0 m c t.val t.isLt).2.2 j = totColumn m c (((cfg0.win 5).blk t).view.emb j)
  have hj : j = ix2 (j 0) (j 1) := eq_ix2 (n0 := 1024) (n1 := 1) j
  refine (congrArg (outsAt0 m c t.val t.isLt).2.2 hj).trans ?_
  refine (RunningSum.scratch_eq m c t.val t.isLt (j 0) (j 1) ((((cfg0.win 5).blk t).view.emb j) 0) ?_).trans ?_
  · show win0_5.index t (0 : Fin 2) * 1024 + 1 * (j 0).val = 1024 * (t.val / 4) + (j 0).val; omega
  · rw [h1]
    exact Ratings.partialTot_all (queries m c) (keys m c) (temps m c) _

/-- An index of the second result is in point `t`'s block iff each coordinate is in the block's range. -/
theorem mem_blk_tot (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v63_1).slice (win0_5.rect t)).set ↔ _
  rw [View.set_slice_whole, Rect.mem_set_unit]
  exact Iff.rfl

/-- The second result after the region: the total ratings, everywhere. -/
theorem final_tot (c : Dev nD) : (dats m 0 c).arrAt 5 cfg0.N = totColumn m c :=
  (dats m 0 c).arrAt_eq_of_cover 5 (totColumn m c) (fun t hf => flushed_tot m c t hf) fun i => by
    have h0 : (i 0).val < 8192 := (i 0).isLt
    have h1 : (i 1).val < 1 := (i 1).isLt
    have hN : cfg0.N = 32 := N_0
    refine ⟨⟨4 * ((i 0).val / 1024) + 3, by rw [hN]; omega⟩, (flush0_5 _).mpr (by dsimp only; omega), ?_⟩
    rw [mem_blk_tot]
    obtain ⟨-, -, -, -, -, -, -, -, -, -, e0, e1⟩ := idx_facts ⟨4 * ((i 0).val / 1024) + 3, by rw [hN]; omega⟩
    intro a
    match a with
    | ⟨0, _⟩ =>
      show win0_5.index _ (0 : Fin 2) * 1024 ≤ (i 0).val ∧ (i 0).val < win0_5.index _ (0 : Fin 2) * 1024 + 1024
      rw [e0]; dsimp only; omega
    | ⟨1, _⟩ =>
      show win0_5.index _ (1 : Fin 2) * 1 ≤ (i 1).val ∧ (i 1).val < win0_5.index _ (1 : Fin 2) * 1 + 1
      rw [e1]; omega

end Cert.KernelIdeal.Arrays

end
-- ==== Proof.LibColumnVector.lean ====
/-
  A column [a, 1] recast as a vector [a], read at an index: entry i of the vector is entry (i, 0) of the column
  (a recast keeps the row-major position, and the unit axis contributes nothing to it).  The counterpart of the
  vector-to-column recast [a] -> [a, 1].
-/
import Idealize.ShloMosaic.Lib.Pipeline.Value
import Idealize.ShloMosaic.Lib.ValueIdx

namespace Cert.LibColumnVector

open Idealize.ShloMosaic Idealize.ShloMosaic.ValueIdx

variable {α : Type}

/-- An [a, 1] column recast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnVector
-- ==== Proof.KernelRun.lean ====
/-
  The kernel's run, read: what each of its three results holds when it ends.

  The region leaves the positive ratings in its first array and the total ratings, as a column, in its second; after
  the region the host recasts that column as a vector (entry r of the vector is entry (r, 0) of the column) and
  averages the temperatures the region was given, which the region does not change.  The arguments end as they
  were launched.
-/
import proofs.«108263_j62182536511796_2_alg».proof.Proof.Arrays
import proofs.«108263_j62182536511796_2_alg».proof.Proof.LibColumnVector
import Idealize.ShloMosaic.Lib.Pipeline.Value
import Idealize.ShloMosaic.Lib.StableHlo.Run

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Results

open Cert.KernelIdeal Cert.KernelIdeal.Gen Cert.KernelIdeal.BlockReads

variable (m : (ℓ : Loc nD τ sig) → Buf (Elt Ideal) ℓ) (ρ : Dev nD → PrngReg)

/-- The total ratings as a vector: entry `r` is the total rating of query `r`. -/
def totVector (c : Dev nD) : S8192.Idx → EReal :=
  fun i => Ratings.tot (queries m c) (keys m c) (temps m c) (i 0)

/-- The mean of a column of 8192 temperatures, as the host computes it: their sum from zero, divided by 8192. -/
def meanTemp (T : FVec Ideal S8192x1 .f32) : FVec Ideal S_ .f32 :=
  Host.divf (Host.reduceAdd T (constant (F := Ideal) S_ .f32 0x00000000#32) reducesTo_S8192x1_S_d0_1 h_S_)
    (constant (F := Ideal) S_ .f32 0x46000000#32)

/-- After the region the second result is the total ratings recast from a column to a vector. -/
theorem tail_tot (c : Dev nD) :
    Pipeline.afterTail₀ cfgs (dats m) 0 (V0 m) [hostOps1] c main_v64 = totVector m c := by
  unfold Pipeline.afterTail₀
  show StableHlo.after hostOps1 _ (Proc.devRef .tc main_v64) = _
  after_results
  funext i
  show shapeCast S8192 (Pipeline.withArrays spec0 c (V0 m c) (fun w => (dats m 0 c).arrAt w cfg0.N)
    (Proc.devRef .tc (Pipeline.arrRef spec0 5))) shapeCasts_S8192x1_S8192 i = _
  rw [Pipeline.withArrays_arr spec0 launch0.win.arr_inj c _ _ 5, Arrays.final_tot]
  have hi : i = ix1 (i 0) := eq_ix1 (n := 8192) i
  rw [hi]
  exact Cert.LibColumnVector.shapeCast_a1_a_apply _ _ (i 0)

/-- After the region the third result is the mean of the temperatures the region was given. -/
theorem tail_mean (c : Dev nD) :
    Pipeline.afterTail₀ cfgs (dats m) 0 (V0 m) [hostOps1] c main_v66 = meanTemp (V m c main_v57) := by
  unfold Pipeline.afterTail₀
  show StableHlo.after hostOps1 _ (Proc.devRef .tc main_v66) = _
  after_results
  have e : Pipeline.withArrays spec0 c (V0 m c) (fun w => (dats m 0 c).arrAt w cfg0.N)
      (Proc.devRef .tc (Pipeline.arrRef spec0 3)) = V m c main_v57 :=
    (Pipeline.withArrays_arr spec0 launch0.win.arr_inj c _ _ 3).trans
      (((dats m 0 c).arrAt_in 3 rfl _).trans (A_eq m c 3))
  exact congrArg meanTemp e

/-- Every weakly fair execution of the kernel's program ends with the positive ratings, the total ratings and the
    mean temperature in its three results, and its arguments unchanged. -/
theorem run : θ_run defs (onTc (τ := τ) (main (F := Ideal))) ⟨m, fun _ => 0, ρ⟩ fun r => ∀ c : Dev nD,
      r.2.mem ((c.tc : Thread nD τ).loc main_v63_0) = Arrays.posArray m c
      ∧ r.2.mem ((c.tc : Thread nD τ).loc main_v64) = totVector m c
      ∧ r.2.mem ((c.tc : Thread nD τ).loc main_v66) = meanTemp (V m c main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 4).trans (Arrays.final_pos m c),
      ((h c).2 main_v64 (Pipeline.mem_restRefs_of main_v64 (by decide) (by decide))).trans (tail_tot m c),
      ((h c).2 main_v66 (Pipeline.mem_restRefs_of main_v66 (by decide) (by decide))).trans (tail_mean m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Results

end
-- ==== Proof.HostHead.lean ====
/-
  What the region finds in its four input arrays, named.

  Before the region the host normalises the gathered feature rows, runs the two dense layers and the sigmoid that
  give each query its temperature, and sums the products of matching rows into the positive scores.  The other
  program of this certificate computes the very same four arrays from the same arguments with the same operations,
  and has a name for each stage; here each of the region's input arrays is shown to be the stage of that name
  (followed by a change of float format, which is the identity on the extended reals, or by a recast of a vector as
  a one-row matrix).  Nothing is computed: the two sides are the same composition of the same operations.
-/
import proofs.«108263_j62182536511796_2_alg».proof.Proof.Gen.KernelIdeal.Frame
import proofs.«108263_j62182536511796_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostHead

open Cert.KernelIdeal Cert.KernelIdeal.Gen

variable (m : (ℓ : Loc nD τ sig) → Buf (Elt Ideal) ℓ)

set_option maxHeartbeats 16000000 in
/-- The temperatures the region finds are the temperature stage of the arguments. -/
theorem temps_stage (c : Dev nD) :
    (V m c main_v57 : S8192x1.Idx → EReal)
      = Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  dsimp only [Gen.V, Gen.V0]
  simp only [hostOps0, hostOps0_1, hostOps0_2, List.flatten_cons, List.flatten_nil, List.append_nil, List.cons_append,
    List.nil_append]
  after_results_simp
  rfl

set_option maxHeartbeats 16000000 in
/-- The query rows the region finds are the normalised gathered rows of the first table (the change to the narrower
    float format is the identity here). -/
theorem queries_stage (c : Dev nD) :
    (V m c main_v61 : S8192x128.Idx → EReal)
      = Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  dsimp only [Gen.V, Gen.V0]
  simp only [hostOps0, hostOps0_1, hostOps0_2, List.flatten_cons, List.flatten_nil, List.append_nil, List.cons_append,
    List.nil_append]
  after_results_simp
  rfl

set_option maxHeartbeats 16000000 in
/-- The key rows the region finds are the normalised gathered rows of the second table. -/
theorem keys_stage (c : Dev nD) :
    (V m c main_v62 : S8192x128.Idx → EReal)
      = Cert.ReferenceIdeal.Read.val_main_v29 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  dsimp only [Gen.V, Gen.V0]
  simp only [hostOps0, hostOps0_1, hostOps0_2, List.flatten_cons, List.flatten_nil, List.append_nil, List.cons_append,
    List.nil_append]
  after_results_simp
  rfl

set_option maxHeartbeats 16000000 in
/-- The positive scores the region finds are the score stage, recast from a vector to a one-row matrix. -/
theorem scores_stage (c : Dev nD) :
    (V m c main_v60 : S1x8192.Idx → EReal)
      = shapeCast S1x8192 (Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) shapeCasts_S8192_S1x8192 := by
  dsimp only [Gen.V, Gen.V0]
  simp only [hostOps0, hostOps0_1, hostOps0_2, List.flatten_cons, List.flatten_nil, List.append_nil, List.cons_append,
    List.nil_append]
  after_results_simp
  rfl

end Cert.KernelIdeal.HostHead

end
-- ==== Proof.RefRead.lean ====
/-
  The reference's three results, index by index.

  From the four arrays both programs compute first — the normalised query rows and key rows, the keys' positive
  scores, the queries' temperatures — the reference broadcasts the scores along the rows and the temperatures along
  the columns, divides and exponentiates: entry (r, k) of its first result is the positive rating of query r against
  key k.  For the second it multiplies the query rows by the transposed key rows (entry (r, k): the inner product of
  the two rows), divides by the broadcast temperatures, exponentiates and sums each row from zero: entry r is the
  total rating of query r.  The third result, the mean temperature, is left as the operations that compute it.
-/
import proofs.«108263_j62182536511796_2_alg».proof.Proof.Gen.ReferenceIdeal.Read
import proofs.«108263_j62182536511796_2_alg».proof.Proof.Ratings
import Idealize.ShloMosaic.Lib.ValueIdx
import Idealize.ShloMosaic.PureOps.Ideal.Laws

noncomputable section

open Idealize.ShloMosaic Idealize.ShloMosaic.ValueIdx
open scoped BigOperators

namespace Cert.ReferenceIdeal.RefRead

open Cert.ReferenceIdeal Cert.ReferenceIdeal.Gen Cert.ReferenceIdeal.Read

variable (x0 x1 : (⟨S100000x128, .f32⟩ : BufTy).Contents (Elt Ideal)) (x2 x3 : (⟨S8192, .i32⟩ : BufTy).Contents (Elt Ideal))
  (x4 : (⟨S128x128, .f32⟩ : BufTy).Contents (Elt Ideal)) (x5 : (⟨S128, .f32⟩ : BufTy).Contents (Elt Ideal))
  (x6 : (⟨S1x128, .f32⟩ : BufTy).Contents (Elt Ideal)) (x7 : (⟨S1, .f32⟩ : BufTy).Contents (Elt Ideal))

/-- The normalised query feature rows: row `r`, feature `d`. -/
def queries (r : Fin 8192) (d : Fin 128) : EReal := val_main_v14 (F := Ideal) x0 x2 (ix2 r d)
/-- The normalised key feature rows. -/
def keys (k : Fin 8192) (d : Fin 128) : EReal := val_main_v29 (F := Ideal) x1 x3 (ix2 k d)
/-- The keys' positive scores. -/
def scores (k : Fin 8192) : EReal := val_main_v59 (F := Ideal) x0 x1 x2 x3 (ix1 k)
/-- The queries' temperatures. -/
def temps (r : Fin 8192) : EReal := val_main_v57 (F := Ideal) x0 x1 x2 x3 x4 x5 x6 x7 (ix2 r (0 : Fin 1))

/-- The first result: the positive rating of every query against every key. -/
theorem pos_eq : val_main_v64 (F := Ideal) x0 x1 x2 x3 x4 x5 x6 x7
    = fun i => Ratings.posRating (scores x0 x1 x2 x3) (temps x0 x1 x2 x3 x4 x5 x6 x7) (i 0) (i 1) := by
  funext i
  rw [val_main_v64_apply, val_main_v63_apply, val_main_v61_apply, val_main_v60_apply, val_main_v62_apply]
  have e1 : idx_main_v60 (idx_main_v61 i) = ix1 (i 1) :=
    funext fun a => Fin.ext (by match a with | ⟨0, _⟩ => rfl)
  have e2 : idx_main_v62 i = ix2 (i 0) (0 : Fin 1) :=
    funext fun a => Fin.ext (by match a with | ⟨0, _⟩ => rfl | ⟨1, _⟩ => rfl)
  rw [e1, e2]
  rfl

/-- The second result: the total rating of every query. -/
theorem tot_eq : val_main_v70 (F := Ideal) x0 x1 x2 x3 x4 x5 x6 x7
    = fun i => Ratings.tot (queries x0 x2) (keys x1 x3) (temps x0 x1 x2 x3 x4 x5 x6 x7) (i 0) := by
  funext i
  rw [val_main_v70_apply]
  have hz : (val_main_cst_14 (F := Ideal)) (Shape.Idx.first h_S_) = 0 := Ideal.ofBits_zero_f32
  rw [hz, zero_add]
  unfold Ratings.tot
  refine Finset.sum_congr rfl fun k _ => ?_
  rw [val_main_v69_apply, val_main_v68_apply, val_main_v66_apply, val_main_v67_apply]
  unfold Ratings.weight Ratings.sim
  show Ideal.exp (Ideal.div _ _) = _
  refine congrArg Ideal.exp (congr (congrArg Ideal.div (Finset.sum_congr rfl fun d _ => ?_)) ?_)
  · rw [val_main_v65_apply]
    have el : lidx_main_v66 (idx_main_v70 i k) d = ix2 (i 0) d :=
      funext fun a => Fin.ext (by match a with | ⟨0, _⟩ => rfl | ⟨1, _⟩ => rfl)
    have er : idx_main_v65 (ridx_main_v66 (idx_main_v70 i k) d) = ix2 k d :=
      funext fun a => Fin.ext (by match a with | ⟨0, _⟩ => rfl | ⟨1, _⟩ => rfl)
    rw [el, er]
    rfl
  · have e : idx_main_v67 (idx_main_v70 i k) = ix2 (i 0) (0 : Fin 1) :=
      funext fun a => Fin.ext (by match a with | ⟨0, _⟩ => rfl | ⟨1, _⟩ => rfl)
    rw [e]
    rfl

end Cert.ReferenceIdeal.RefRead

end
-- ==== Proof.Bridge.lean ====
/-
  The two programs start from the same four arrays.

  The arrays the kernel's region reads — query rows, key rows, positive scores, temperatures — are, entry by entry,
  the reference's arrays of the same names computed from the same arguments: the host operations before the region
  are the reference's first stages (a change of float format in between is the identity, and the scores reach the
  region as a one-row matrix whose entry (0, k) is the vector's entry k).
-/
import proofs.«108263_j62182536511796_2_alg».proof.Proof.HostHead
import proofs.«108263_j62182536511796_2_alg».proof.Proof.BlockReads
import proofs.«108263_j62182536511796_2_alg».proof.Proof.RefRead
import Idealize.ShloMosaic.Lib.ValueLayout

noncomputable section

open Idealize.ShloMosaic Idealize.ShloMosaic.TcCoe Idealize.ShloMosaic.ValueIdx Idealize.SL.Sem

namespace Cert.KernelIdeal.Bridge

open Cert.KernelIdeal Cert.KernelIdeal.Gen

variable (m : (ℓ : Loc nD τ sig) → Buf (Elt Ideal) ℓ)

/-- The query rows the region reads are the reference's query rows of the same arguments. -/
theorem queries_eq (c : Dev nD) :
    BlockReads.queries m c = Cert.ReferenceIdeal.RefRead.queries (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  funext r d
  unfold BlockReads.queries Cert.ReferenceIdeal.RefRead.queries
  exact congrFun (HostHead.queries_stage m c) (ix2 r d)

/-- The key rows the region reads are the reference's key rows. -/
theorem keys_eq (c : Dev nD) :
    BlockReads.keys m c = Cert.ReferenceIdeal.RefRead.keys (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  funext k d
  unfold BlockReads.keys Cert.ReferenceIdeal.RefRead.keys
  exact congrFun (HostHead.keys_stage m c) (ix2 k d)

/-- The temperatures the region reads are the reference's temperatures. -/
theorem temps_eq (c : Dev nD) :
    BlockReads.temps m c = Cert.ReferenceIdeal.RefRead.temps (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  funext r
  unfold BlockReads.temps Cert.ReferenceIdeal.RefRead.temps
  exact congrFun (HostHead.temps_stage m c) (ix2 r (0 : Fin 1))

/-- The positive scores the region reads are the reference's positive scores. -/
theorem scores_eq (c : Dev nD) :
    BlockReads.scores m c = Cert.ReferenceIdeal.RefRead.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext k
  unfold BlockReads.scores Cert.ReferenceIdeal.RefRead.scores
  exact (congrFun (HostHead.scores_stage m c) (ix2 (0 : Fin 1) k)).trans (shapeCast_a_1a_apply _ _ (0 : Fin 1) k)

end Cert.KernelIdeal.Bridge

end
-- ==== Proof.lean ====
/-
  The certificate of the temperature-scaled rating kernel against its reference.

  Both programs gather and normalise 8192 query rows and 8192 key rows of 128 features, give each query a
  temperature through two dense layers and a sigmoid, and give each key a positive score.  From these they produce
  the positive ratings exp (score k / temperature r), an [8192, 8192] array; the total ratings, for each query r the
  sum over all keys k of exp (<query r, key k> / temperature r); and the mean temperature.

  The kernel computes the two big results on an 8 × 4 grid, 1024 queries by 2048 keys at a time: each point stores its
  block of the positive ratings, and adds its keys' weights to a running sum per query that it carries across the
  four key blocks and writes out after the last.  The reference computes them with whole-array operations.  On the
  extended reals the inner products, quotients and exponentials are the same functions on both sides and a change of
  float format is the identity; the running sum over four consecutive blocks of 2048 keys is the sum over all 8192
  keys because addition is associative and commutative there, so no finiteness is used.  The four arrays everything
  starts from, and the mean temperature, are computed by the very same host operations in both programs.

  The three frames are the generated ones (the reference's is its generated run with the results dropped); the ideal
  pass rewrote nothing, so there is nothing to preserve.
-/
import proofs.«108263_j62182536511796_2_alg».proof.Defs
import proofs.«108263_j62182536511796_2_alg».proof.Proof.Gen.Kernel
import proofs.«108263_j62182536511796_2_alg».proof.Proof.Gen.Kernel.Frame
import proofs.«108263_j62182536511796_2_alg».proof.Proof.Gen.KernelIdeal
import proofs.«108263_j62182536511796_2_alg».proof.Proof.Gen.KernelIdeal.Frame
import proofs.«108263_j62182536511796_2_alg».proof.Proof.Gen.ReferenceIdeal
import proofs.«108263_j62182536511796_2_alg».proof.Proof.Gen.ReferenceIdeal.Run
import proofs.«108263_j62182536511796_2_alg».proof.Proof.Gen.ReferenceIdeal.Read
import proofs.«108263_j62182536511796_2_alg».proof.Proof.Gen.Pre_finite_inputs
import proofs.«108263_j62182536511796_2_alg».proof.Proof.KernelRun
import proofs.«108263_j62182536511796_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with what it says of the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From arguments that agree, the kernel and the reference end with the same positive ratings, the same total
    ratings and the same mean temperature. -/
theorem algebraic : Cert.algebraic_KernelIdeal_ReferenceIdeal := by
  intro m ρ m' ρ' _ hagree
  refine ⟨fun c => Cert.KernelIdeal.Arrays.posArray m c, fun c => Cert.KernelIdeal.Results.totVector m c,
    fun c => Cert.KernelIdeal.Results.meanTemp (Cert.KernelIdeal.Gen.V m c Cert.KernelIdeal.main_v57),
    Cert.KernelIdeal.Results.run m ρ, ?_⟩
  refine (θ_run Cert.ReferenceIdeal.defs _ _).mono (fun _ h c => ?_) (Cert.ReferenceIdeal.Value.run (F := Ideal) m' ρ')
  obtain ⟨r0, r1, r2, kept⟩ := h c
  obtain ⟨a0, a1, a2, a3, a4, a5, a6, a7⟩ := hagree c
  refine ⟨r0.trans ?_, r1.trans ?_, r2.trans ?_, kept⟩
  · rw [Cert.ReferenceIdeal.Read.val_main_v64_eq, a0, a1, a2, a3, a4, a5, a6, a7, Cert.ReferenceIdeal.RefRead.pos_eq]
    show _ = Cert.KernelIdeal.Arrays.posArray m c
    unfold Cert.KernelIdeal.Arrays.posArray
    rw [Cert.KernelIdeal.Bridge.scores_eq m c, Cert.KernelIdeal.Bridge.temps_eq m c]
  · rw [Cert.ReferenceIdeal.Read.val_main_v70_eq, a0, a1, a2, a3, a4, a5, a6, a7, Cert.ReferenceIdeal.RefRead.tot_eq]
    show _ = Cert.KernelIdeal.Results.totVector m c
    unfold Cert.KernelIdeal.Results.totVector
    rw [Cert.KernelIdeal.Bridge.queries_eq m c, Cert.KernelIdeal.Bridge.keys_eq m c, Cert.KernelIdeal.Bridge.temps_eq m c]
  · rw [Cert.ReferenceIdeal.Read.val_main_v72_eq, a0, a1, a2, a3, a4, a5, a6, a7]
    show _ = Cert.KernelIdeal.Results.meanTemp (Cert.KernelIdeal.Gen.V m c Cert.KernelIdeal.main_v57)
    rw [Cert.KernelIdeal.HostHead.temps_stage m c]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
